-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x4096x4096 .f32) (main_arg1 : FVec F S4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x4096x4096 : Shape := ⟨3, ![4, 4096, 4096]⟩
abbrev S4096x4096 : Shape := ⟨2, ![4096, 4096]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .hbm, ⟨6, _⟩ => ⟨S4x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x4096x4096_S16384x4096 : S4x4096x4096.ShapeCasts S16384x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x4096_S4x4096x4096 : S16384x4096.ShapeCasts S4x4096x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x4096.size a
  hwx0_2 : ∀ i : grid0.Coords, EltTy.bits .f32 = 32 ∨ (Rect.block (s := S16384x4096) S2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4x4096x1x4096 : Shape := ⟨4, ![4, 4096, 1, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4x4096x1x4096, .f32⟩
  | .hbm, ⟨3, _⟩ => ⟨S4x4096x1x4096, .f32⟩
  | .hbm, ⟨4, _⟩ => ⟨S_, .f32⟩
  | .hbm, ⟨5, _⟩ => ⟨S4x4096x1x4096, .f32⟩
  | .hbm, ⟨6, _⟩ => ⟨S4x4096x1x4096, .f32⟩
  | .hbm, ⟨7, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S4x4096x4096_S4x4096x1x4096 : S4x4096x4096.ShapeCasts S4x4096x1x4096
  bcast_S_S4x4096x1x4096 : S_.BroadcastsInDim S4x4096x1x4096 (![] : Fin 0 → Fin S4x4096x1x4096.rank)
  shapeCasts_S4x4096x1x4096_S4x4096x4096 : S4x4096x1x4096.ShapeCasts S4x4096x4096
  dot_S4x4096x1x4096_S4096x4096_S4x4096x1x4096_3_1_012_0_n_n_wf : DotDims.WF S4x4096x1x4096 S4096x4096 S4x4096x1x4096 [3] [1] [0, 1, 2] [0] [] []

variable [Facts₀]

def dot_S4x4096x1x4096_S4096x4096_S4x4096x1x4096_3_1_012_0_n_n : DotDims S4x4096x1x4096 S4096x4096 S4x4096x1x4096 where
  lhsContracting := [3]
  rhsContracting := [1]
  lhsNonContracting := [0, 1, 2]
  rhsNonContracting := [0]
  lhsBatch := []
  rhsBatch := []
  wf := dot_S4x4096x1x4096_S4096x4096_S4x4096x1x4096_3_1_012_0_n_n_wf

class Facts : Prop extends Facts₀ where

variable [Facts]
-- ==== Proof.Pieces.lean ====
/-
  What one run of the body leaves behind, case by case, as values of the body's arithmetic.

  The body has three cases, by the position `k` along the contracted axis' four stretches. At `k = 0` it clears
  the accumulator and adds this stretch's product into the cleared one; at `k = 1, 2` it adds this stretch's product
  into what the point before left; at `k = 3` it does the same and then writes the accumulator, scaled, to the output
  block. Each store covers its whole buffer, so what a buffer ends holding is its last store's value.
-/
import proofs.«106576_j8890582303360_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First stretch: the accumulator ends at the cleared block plus this stretch's product. -/
theorem acc_first (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (a6 : Memref sig .tc .vmem S2048x1024 .f32) (h6 : a6.IsWhole) (hc0 : cond0_0 i) (hc1 : ¬cond0_1 i)
    (x0 : Vec F S2048x1024 .bf16) (x1 : Vec F S1024x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x1024) hz,
    View.ld_unit_zero (S := S1024x1024) hz]

/-- A middle stretch: the accumulator ends at what the point before left plus this stretch's product. -/
theorem acc_middle (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : ¬cond0_1 i)
    (x0 : Vec F S2048x1024 .bf16) (x1 : Vec F S1024x1024 .bf16) (xs : Vec F S2048x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S2048x1024) hz]
  simp only [View.readAt_eq_ld, h3.read_unread, h4.read_unread, h6.read_unread, View.ld_unit_zero (S := S2048x1024) hz,
    View.ld_unit_zero (S := S1024x1024) hz]

/-- The last stretch leaves the accumulator as a middle one does, -/
theorem acc_last (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x1024 .bf16) (x1 : Vec F S1024x1024 .bf16) (xs : Vec F S2048x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S2048x1024) hz]
  simp only [View.readAt_eq_ld, h3.read_unread, h4.read_unread, h6.read_unread, View.ld_unit_zero (S := S2048x1024) hz,
    View.ld_unit_zero (S := S1024x1024) hz]

/-- and the output block at the scaled accumulator: the scale applied to that same sum. -/
theorem out_last (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x1024 .bf16) (x1 : Vec F S1024x1024 .bf16) (xs : Vec F S2048x1024 .f32) :
    out0_C_2 c i a3 h3 a4 h4 a5 h5 a6 h6 hc0 hc1 x0 x1 xs = k0_pay3 (k0_pay2 x0 x1 xs) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S2048x1024) hz, View.readCov_unit_zero (S := S2048x1024) _ hz]
  simp only [View.readAt_eq_ld, h3.read_unread, h4.read_unread, h6.read_unread, View.ld_unit_zero (S := S2048x1024) hz,
    View.ld_unit_zero (S := S1024x1024) hz]

end Cert.KernelIdeal.Pieces

end
-- ==== Proof.Payload.lean ====
/-
  The body's arithmetic at one entry, over the extended reals.

  The block product contracts the second axis of both operands: entry `(r, n)` of the 2048 × 1024 product is the
  sum over `q < 1024` of `a (r, q) · b (n, q)` — a row of the left block against a ROW of the right block, which is
  the product with the transpose. The body adds that to the accumulator's entry; the cleared accumulator's entries
  are `0`; the output's entry is the accumulator's times the scale's word.
-/
import proofs.«106576_j8890582303360_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen

/-- The left operand's index at output entry `j` and contracted position `k`: row `j 0`, place `k`. -/
theorem lhs_row (j : S2048x1024.Idx) (q : dot_S2048x1024_S1024x1024_S2048x1024_1_1_0_0_n_n.contr.Idx) :
    (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_place (j : S2048x1024.Idx) (q : dot_S2048x1024_S1024x1024_S2048x1024_1_1_0_0_n_n.contr.Idx) :
    (dot_S2048x1024_S1024x1024_S2048x1024_1_1_0_0_n_n.lhsIdx j q 1).val = (q ⟨0, by decide⟩).val :=
  dot_S2048x1024_S1024x1024_S2048x1024_1_1_0_0_n_n.lhsIdx_val_of_single rfl j q
/-- The right operand's: row `j 1` (the output's column), place `k`. -/
theorem rhs_row (j : S2048x1024.Idx) (q : dot_S2048x1024_S1024x1024_S2048x1024_1_1_0_0_n_n.contr.Idx) :
    (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_place (j : S2048x1024.Idx) (q : dot_S2048x1024_S1024x1024_S2048x1024_1_1_0_0_n_n.contr.Idx) :
    (dot_S2048x1024_S1024x1024_S2048x1024_1_1_0_0_n_n.rhsIdx j q 1).val = (q ⟨0, by decide⟩).val :=
  dot_S2048x1024_S1024x1024_S2048x1024_1_1_0_0_n_n.rhsIdx_val_of_single rfl j q

/-- The block product into the zero accumulator, at entry `(r, n)`: row `r` of `a` against row `n` of `b`. -/
theorem blockProduct_apply (a : FVec Ideal S2048x1024 .bf16) (b : FVec Ideal S1024x1024 .bf16) (r : Fin 2048) (n : Fin 1024) :
    matmul (F := Ideal) dot_S2048x1024_S1024x1024_S2048x1024_1_1_0_0_n_n none a b (constant S2048x1024 .f32 0x00000000#32) (ix2 r n)
      = ∑ q : Fin 1024, a (ix2 r q) * b (ix2 n q) := by
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 r n) ((contrEquiv1 dot_S2048x1024_S1024x1024_S2048x1024_1_1_0_0_n_n 1024 rfl rfl).symm k) = ix2 r k := funext fun d => Fin.ext (by
    match d with
    | ⟨0, _⟩ => exact lhs_row _ _
    | ⟨1, _⟩ => exact (lhs_place _ _).trans hk)
  have er : dot_S2048x1024_S1024x1024_S2048x1024_1_1_0_0_n_n.rhsIdx (ix2 r n) ((contrEquiv1 dot_S2048x1024_S1024x1024_S2048x1024_1_1_0_0_n_n 1024 rfl rfl).symm k) = ix2 n k := funext fun d => Fin.ext (by
    match d with
    | ⟨0, _⟩ => exact rhs_row _ _
    | ⟨1, _⟩ => exact (rhs_place _ _).trans hk)
  rw [el, er]

/-- The cleared accumulator holds `0` everywhere. -/
theorem cleared_apply (y : S2048x1024.Idx) : k0_pay1 (F := Ideal) y = 0 := by
  unfold k0_pay1
  rw [shapeCast_self]
  exact Ideal.ofBits_zero_f32

/-- The accumulating store's value at entry `(r, n)`: the accumulator's entry plus this stretch's row product. -/
theorem accumulate_apply (a : Vec Ideal S2048x1024 .bf16) (b : Vec Ideal S1024x1024 .bf16) (acc : Vec Ideal S2048x1024 .f32)
    (r : Fin 2048) (n : Fin 1024) :
    k0_pay2 (F := Ideal) a b acc (ix2 r n) = acc (ix2 r n) + ∑ q : Fin 1024, a (ix2 r q) * b (ix2 n q) := by
  unfold k0_pay2
  simp only [shapeCast_self]
  rw [addf_apply, blockProduct_apply]

/-- The output store's value: the accumulator's entry times the scale. -/
theorem scaled_apply (acc : Vec Ideal S2048x1024 .f32) (y : S2048x1024.Idx) :
    k0_pay3 (F := Ideal) acc y = acc y * Ideal.ofBits .f32 0x3C800000#32 := by
  unfold k0_pay3
  rfl

end Cert.KernelIdeal.Payload

end
-- ==== Proof.Spec.lean ====
/-
  The arithmetic both programs share, stated with no program in sight.

  The result at row `R` and column `C` is `(∑ k < 4096, X (R, k) · H (C, k)) · s`: a row of `X` against a row of
  `H` (the product with the transpose), then one scale. The kernel cuts the contracted axis into four stretches of
  1024 positions and adds the stretches' sums one after the other into an accumulator that starts at zero; the
  reference takes the sum whole. On the extended reals addition is commutative and associative, so a sum over
  4096 positions IS the sum of its four stretches (`sum_split`), and the accumulator after the fourth stretch is
  the whole sum (`psum_three`). No finiteness is used anywhere.
-/
import Idealize.ShloMosaic.PureOps.Ideal
import Idealize.ShloMosaic.Lib.ValueIdx
import Mathlib.Algebra.BigOperators.Fin
import Mathlib.Logic.Equiv.Fin.Basic

noncomputable section

namespace Cert.Hadamard

open Idealize.ShloMosaic Idealize.ShloMosaic.ValueIdx

/-- Position `1024·kb + q` of the contracted axis: place `q` of stretch `kb`. -/
abbrev kpos (kb : Fin 4) (q : Fin 1024) : Fin 4096 := ⟨1024 * kb.val + q.val, by omega⟩

/-- Row `2048·i + r` of the 16384 rows: row `r` of row block `i`. -/
abbrev rpos (i : Fin 8) (r : Fin 2048) : Fin 16384 := ⟨2048 * i.val + r.val, by omega⟩

/-- Column `1024·j + n` of the 4096 columns: column `n` of column block `j`. -/
abbrev cpos (j : Fin 4) (n : Fin 1024) : Fin 4096 := ⟨1024 * j.val + n.val, by omega⟩

/-- The grid has 8 · 4 · 4 points, the last axis fastest: point `n` works on row block `n / 16`, column block
    `n / 4 mod 4` and stretch `n mod 4` (the three digits of `n` in the mixed radix 8, 4, 4). -/
abbrev rowBlk (n : ℕ) : Fin 8 := ⟨n / 16 % 8, Nat.mod_lt _ (by decide)⟩
abbrev colBlk (n : ℕ) : Fin 4 := ⟨n / 4 % 4, Nat.mod_lt _ (by decide)⟩
abbrev stretchOf (n : ℕ) : Fin 4 := ⟨n % 4, Nat.mod_lt _ (by decide)⟩

/-- A sum over the 4096 positions is the sum, over the four stretches, of each stretch's 1024 terms. -/
theorem sum_split {M : Type*} [AddCommMonoid M] (f : Fin 4096 → M) :
    ∑ k : Fin 4096, f k = ∑ kb : Fin 4, ∑ q : Fin 1024, f (kpos kb q) := by
  rw [← Fintype.sum_prod_type']
  refine (Fintype.sum_equiv (finProdFinEquiv (m := 4) (n := 1024)) (fun p => f (kpos p.1 p.2)) (fun k => f k) fun p => ?_).symm
  refine congrArg f (Fin.ext ?_)
  show 1024 * p.1.val + p.2.val = p.2.val + 1024 * p.1.val
  omega

/-- The accumulator after stretch `k`: the first stretch's sum, then one more stretch's sum added per step. -/
def psum {M : Type*} [Add M] (T : Fin 4 → M) : ℕ → M
  | 0 => T 0
  | k + 1 => psum T k + T ⟨(k + 1) % 4, Nat.mod_lt _ (by decide)⟩

theorem psum_zero {M : Type*} [Add M] (T : Fin 4 → M) : psum T 0 = T 0 := rfl

theorem psum_succ {M : Type*} [Add M] (T : Fin 4 → M) (k : ℕ) :
    psum T (k + 1) = psum T k + T ⟨(k + 1) % 4, Nat.mod_lt _ (by decide)⟩ := rfl

/-- After the fourth stretch the accumulator holds the sum of all four. -/
theorem psum_three {M : Type*} [AddCommMonoid M] (T : Fin 4 → M) : psum T 3 = ∑ kb : Fin 4, T kb := by
  rw [Fin.sum_univ_four]; rfl

/-- Stretch `kb`'s contribution to the entry at row `r` of row block `i` and column `n` of column block `j`. -/
def stretch (X : (⟨2, ![16384, 4096]⟩ : Shape).Idx → EReal) (H : (⟨2, ![4096, 4096]⟩ : Shape).Idx → EReal)
    (i : Fin 8) (j : Fin 4) (r : Fin 2048) (n : Fin 1024) (kb : Fin 4) : EReal :=
  ∑ q : Fin 1024, X (ix2 (rpos i r) (kpos kb q)) * H (ix2 (cpos j n) (kpos kb q))

/-- Row `R` of `X` against row `C` of `H`: the entry of `X · Hᵀ`. -/
def rowDot (X : (⟨2, ![16384, 4096]⟩ : Shape).Idx → EReal) (H : (⟨2, ![4096, 4096]⟩ : Shape).Idx → EReal)
    (R : Fin 16384) (C : Fin 4096) : EReal :=
  ∑ k : Fin 4096, X (ix2 R k) * H (ix2 C k)

/-- The four stretches accumulated are the whole row product. -/
theorem psum_stretch_three (X : (⟨2, ![16384, 4096]⟩ : Shape).Idx → EReal) (H : (⟨2, ![4096, 4096]⟩ : Shape).Idx → EReal)
    (i : Fin 8) (j : Fin 4) (r : Fin 2048) (n : Fin 1024) :
    psum (stretch X H i j r n) 3 = rowDot X H (rpos i r) (cpos j n) := by
  rw [psum_three]
  unfold rowDot stretch
  rw [sum_split]

end Cert.Hadamard

end
-- ==== Proof.Blocks.lean ====
/-
  Which entries of the arrays each grid point's blocks hold.

  The kernel's left operand is the 16384 × 4096 array `X` the host lines before the call produce, its right operand
  the 4096 × 4096 array `H`. At grid point `t`, with row block `i = t / 16`, column block `j = t / 4 mod 4` and
  stretch `k = t mod 4`: the left block is rows `2048·i …` and places `1024·k …` of `X`; the right block is rows
  `1024·j …` and places `1024·k …` of `H`; the output block is rows `2048·i …` and columns `1024·j …` of the result.
  A block's coordinate is always block index × block extent + the coordinate inside the block.
-/
import proofs.«106576_j8890582303360_2_alg».proof.Proof.Gen.KernelIdeal.Frame
import proofs.«106576_j8890582303360_2_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.Hadamard

variable {F : FTy → Type} [FloatOps F]
variable (m : (ℓ : Loc nD τ sig) → Buf (Elt F) ℓ)

/-- The block indices of the three windows at a grid point are the point's digits, decided over the 128 points. -/
theorem idx_digits : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The two operand arrays as the call finds them, -/
def lhsArr (c : Dev nD) : S16384x4096.Idx → Elt F .bf16 := V m c main_v1
def rhsArr (c : Dev nD) : S4096x4096.Idx → Elt F .bf16 := V m c main_v2

/-- and their blocks at grid point `t`. -/
def lhsBlk (c : Dev nD) (t : Fin cfg0.N) : Vec F S2048x1024 .bf16 := iblk m c 0 t
def rhsBlk (c : Dev nD) (t : Fin cfg0.N) : Vec F S1024x1024 .bf16 := iblk m c 1 t

/-- Entry `(r, q)` of the left block at `t` is entry `(2048·i + r, 1024·k + q)` of `X`. -/
theorem lhsBlk_apply (c : Dev nD) (t : Fin cfg0.N) (r : Fin 2048) (q : Fin 1024) :
    lhsBlk m c t (ix2 r q) = lhsArr m c (ix2 (rpos (rowBlk t.val) r) (kpos (stretchOf t.val) q)) := by
  obtain ⟨e0, e1, -, -, -, -⟩ := idx_digits t
  have hN : t.val < 128 := lt_of_lt_of_eq t.isLt N_0
  unfold lhsBlk lhsArr iblk
  rw [View.read_apply]
  show V m c main_v1 _ = V m c main_v1 _
  congr 1
  funext a; apply Fin.ext
  match a with
  | ⟨0, _⟩ => show win0_0.index t (0 : Fin 2) * 2048 + 1 * r.val = 2048 * (t.val / 16 % 8) + r.val; omega
  | ⟨1, _⟩ => show win0_0.index t (1 : Fin 2) * 1024 + 1 * q.val = 1024 * (t.val % 4) + q.val; omega

/-- Entry `(n, q)` of the right block at `t` is entry `(1024·j + n, 1024·k + q)` of `H`. -/
theorem rhsBlk_apply (c : Dev nD) (t : Fin cfg0.N) (n : Fin 1024) (q : Fin 1024) :
    rhsBlk m c t (ix2 n q) = rhsArr m c (ix2 (cpos (colBlk t.val) n) (kpos (stretchOf t.val) q)) := by
  obtain ⟨-, -, e0, e1, -, -⟩ := idx_digits t
  have hN : t.val < 128 := lt_of_lt_of_eq t.isLt N_0
  unfold rhsBlk rhsArr iblk
  rw [View.read_apply]
  show V m c main_v2 _ = V m c main_v2 _
  congr 1
  funext a; apply Fin.ext
  match a with
  | ⟨0, _⟩ => show win0_1.index t (0 : Fin 2) * 1024 + 1 * n.val = 1024 * (t.val / 4 % 4) + n.val; omega
  | ⟨1, _⟩ => show win0_1.index t (1 : Fin 2) * 1024 + 1 * q.val = 1024 * (t.val % 4) + q.val; omega

end Cert.KernelIdeal.Blocks

end
-- ==== Proof.Accum.lean ====
/-
  What the accumulator and the output block hold after each grid point.

  Points run with the stretch index fastest, so the four points `4g, 4g+1, 4g+2, 4g+3` share a row block and a
  column block and walk the four stretches in order. By induction on the point, the accumulator's entry `(r, n)`
  after point `t` is the first `t mod 4 + 1` stretches' row products added in order (`acc_apply`): a point with
  `t mod 4 = 0` restarts from the cleared block, any other point adds its stretch to what the point before left —
  and the point before has the same row and column block. At a point with `t mod 4 = 3` the output block's entry is
  the whole row product times the scale (`out_apply`).
-/
import proofs.«106576_j8890582303360_2_alg».proof.Proof.Pieces
import proofs.«106576_j8890582303360_2_alg».proof.Proof.Payload
import proofs.«106576_j8890582303360_2_alg».proof.Proof.Blocks

noncomputable section

namespace Cert.KernelIdeal.Accum

open Idealize.ShloMosaic Idealize.ShloMosaic.TcCoe Idealize.SL.Sem Idealize.ShloMosaic.ValueIdx
open Cert.KernelIdeal Cert.KernelIdeal.Gen Cert.Hadamard
open Cert.KernelIdeal.Pieces Cert.KernelIdeal.Payload Cert.KernelIdeal.Blocks

section AnyValues

variable {F : FTy → Type} [FloatOps F]
variable (m : (ℓ : Loc nD τ sig) → Buf (Elt F) ℓ)

/-- At a point that starts a group of four the accumulator restarts: the cleared block plus this stretch. -/
theorem acc_restart (c : Dev nD) (t : Fin cfg0.N) (h0 : t.val % 4 = 0) :
    (outsAt0 m c t.val t.isLt).2 = k0_pay2 (lhsBlk m c t) (rhsBlk m c t) (k0_pay1 (F := F)) := by
  have h1 : ¬t.val % 4 = 3 := by omega
  unfold lhsBlk rhsBlk
  rw [outsAt0_A m c t h0 h1]
  dsimp only
  exact acc_first c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- At any other point it grows by this stretch over what the point before left. -/
theorem acc_grow (c : Dev nD) (t : Fin cfg0.N) (h0 : ¬t.val % 4 = 0) :
    (outsAt0 m c t.val t.isLt).2
      = k0_pay2 (lhsBlk m c t) (rhsBlk m c t) (outsAt0 m c (t.val - 1) (Nat.lt_of_le_of_lt (Nat.sub_le _ _) t.isLt)).2 := by
  unfold lhsBlk rhsBlk
  by_cases h1 : t.val % 4 = 3
  · rw [outsAt0_C m c t h0 h1]
    dsimp only
    exact acc_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact acc_middle c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At the last point of a group the output block is the scale applied to the accumulator that point leaves. -/
theorem out_scaled (c : Dev nD) (t : Fin cfg0.N) (h1 : t.val % 4 = 3) :
    (outsAt0 m c t.val t.isLt).1 = k0_pay3 (outsAt0 m c t.val t.isLt).2 := by
  have h0 : ¬t.val % 4 = 0 := by omega
  rw [outsAt0_C m c t h0 h1]
  dsimp only
  exact (out_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (congrArg k0_pay3 (acc_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).symm)

end AnyValues

section AtIdeal

variable (m : (ℓ : Loc nD τ sig) → Buf (Elt Ideal) ℓ)

/-- This point's stretch, at entry `(r, n)`: the block product's row sum is the stretch's sum over `X` and `H`. -/
theorem blocks_stretch (c : Dev nD) (t : Fin cfg0.N) (r : Fin 2048) (n : Fin 1024) :
    ∑ q : Fin 1024, lhsBlk m c t (ix2 r q) * rhsBlk m c t (ix2 n q)
      = stretch (lhsArr m c) (rhsArr m c) (rowBlk t.val) (colBlk t.val) r n (stretchOf t.val) := by
  unfold stretch
  exact Finset.sum_congr rfl fun q _ => by rw [lhsBlk_apply, rhsBlk_apply]

/-- THE ACCUMULATOR after point `n`: the first `n mod 4 + 1` stretches of its row and column block, added in order. -/
theorem acc_apply (c : Dev nD) : ∀ (n : ℕ) (h : n < cfg0.N) (r : Fin 2048) (k : Fin 1024),
    (outsAt0 m c n h).2 (ix2 r k) = psum (stretch (lhsArr m c) (rhsArr m c) (rowBlk n) (colBlk n) r k) (n % 4)
  | 0, h, r, k => by
    have e : (outsAt0 m c 0 h).2 = _ := acc_restart m c ⟨0, h⟩ rfl
    rw [e, accumulate_apply, cleared_apply, zero_add, blocks_stretch]
    rfl
  | n + 1, h, r, k => by
    have hN : n + 1 < 128 := lt_of_lt_of_eq h N_0
    by_cases h0 : (n + 1) % 4 = 0
    · have e : (outsAt0 m c (n + 1) h).2 = _ := acc_restart m c ⟨n + 1, h⟩ h0
      rw [e, accumulate_apply, cleared_apply, zero_add, blocks_stretch, h0, psum_zero]
      exact congrArg _ (Fin.ext (by show (n + 1) % 4 = 0; exact h0))
    · have e : (outsAt0 m c (n + 1) h).2 = _ := acc_grow m c ⟨n + 1, h⟩ h0
      rw [e, accumulate_apply, blocks_stretch]
      have ih := acc_apply c n (Nat.lt_of_succ_lt h) r k
      have hr : rowBlk n = rowBlk (n + 1) := Fin.ext (by show n / 16 % 8 = (n + 1) / 16 % 8; omega)
      have hc : colBlk n = colBlk (n + 1) := Fin.ext (by show n / 4 % 4 = (n + 1) / 4 % 4; omega)
      rw [hr, hc] at ih
      have hk : (n + 1) % 4 = n % 4 + 1 := by omega
      rw [hk, psum_succ]
      show (outsAt0 m c n _).2 (ix2 r k) + _ = _
      rw [ih]
      exact congrArg _ (congrArg _ (Fin.ext (by show (n + 1) % 4 = (n % 4 + 1) % 4; omega)))

/-- THE OUTPUT BLOCK at the last point of a group: the whole row product of its row and column, times the scale. -/
theorem out_apply (c : Dev nD) (t : Fin cfg0.N) (h1 : t.val % 4 = 3) (r : Fin 2048) (k : Fin 1024) :
    (outsAt0 m c t.val t.isLt).1 (ix2 r k)
      = rowDot (lhsArr m c) (rhsArr m c) (rpos (rowBlk t.val) r) (cpos (colBlk t.val) k) * Ideal.ofBits .f32 0x3C800000#32 := by
  rw [out_scaled m c t h1, scaled_apply, acc_apply m c t.val t.isLt r k, h1, psum_stretch_three]

end AtIdeal

end Cert.KernelIdeal.Accum

end
-- ==== Proof.Whole.lean ====
/-
  From blocks to the result array, and through the host lines around the call.

  Only the last point of each group of four writes its output block back, and those 32 blocks tile the
  16384 × 4096 result: row `R`, column `C` lies in the block of row block `R / 2048` and column block `C / 1024`.
  So the call's result array holds, at `(R, C)`, row `R` of `X` against row `C` of `H`, times the scale (`product`).
  The host lines before the call make `X` the input regrouped to 16384 rows and narrowed to bf16 — at the extended
  reals a change of format is the identity and the regrouping sends row `4096·b + s` to `(b, s)` — and `H` the
  second input narrowed; the line after the call regroups the rows back to `(b, s)`. Hence the kernel's result at
  `(b, s, n)` is `(∑ k, x (b, s, k) · h (n, k)) · scale` (`rotated`).
-/
import proofs.«106576_j8890582303360_2_alg».proof.Proof.Accum
import Idealize.ShloMosaic.Lib.StableHlo.Run

noncomputable section

namespace Cert.Hadamard

open Idealize.ShloMosaic Idealize.ShloMosaic.ValueIdx

/-- THE RESULT as one function of the two inputs: entry `(b, s, n)` is row `(b, s)` of `x` against row `n` of `h`, scaled. -/
def rotated (x : (⟨3, ![4, 4096, 4096]⟩ : Shape).Idx → EReal) (h : (⟨2, ![4096, 4096]⟩ : Shape).Idx → EReal) :
    (⟨3, ![4, 4096, 4096]⟩ : Shape).Idx → EReal :=
  fun i => (∑ k : Fin 4096, x (ix3 (i 0) (i 1) k) * h (ix2 (i 2) k)) * Ideal.ofBits .f32 0x3C800000#32

end Cert.Hadamard

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.Hadamard
open Cert.KernelIdeal.Blocks Cert.KernelIdeal.Accum

variable (m : (ℓ : Loc nD τ sig) → Buf (Elt Ideal) ℓ) (ρ : Dev nD → PrngReg)

/-- What the call's result array ends holding: at `(R, C)` the scaled row product. -/
def product (c : Dev nD) : S16384x4096.Idx → EReal :=
  fun i => rowDot (lhsArr m c) (rhsArr m c) (i 0) (i 1) * Ideal.ofBits .f32 0x3C800000#32

/-- WHAT A WRITING POINT WRITES BACK is its block of `product`. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨-, -, -, -, e0, e1⟩ := idx_digits t
  have hN : t.val < 128 := lt_of_lt_of_eq t.isLt N_0
  show (cfg0.win 2).cut (grid0.coords t) ((dats m 0 c).after 2 t) = _
  rw [after0_2]
  refine funext fun (y : S2048x1024.Idx) => ?_
  obtain ⟨r, k, rfl⟩ : ∃ (r : Fin 2048) (k : Fin 1024), y = ix2 r k := ⟨y 0, y 1, eq_ix2 y⟩
  show (outsAt0 m c t.val t.isLt).1 (ix2 r k) = product m c (((cfg0.win 2).blk t).view.emb (ix2 r k))
  rw [out_apply m c t h3 r k]
  unfold product
  have hR : (((cfg0.win 2).blk t).view.emb (ix2 r k)) 0 = rpos (rowBlk t.val) r :=
    Fin.ext (by show win0_2.index t (0 : Fin 2) * 2048 + 1 * r.val = 2048 * (t.val / 16 % 8) + r.val; omega)
  have hC : (((cfg0.win 2).blk t).view.emb (ix2 r k)) 1 = cpos (colBlk t.val) k :=
    Fin.ext (by show win0_2.index t (1 : Fin 2) * 1024 + 1 * k.val = 1024 * (t.val / 4 % 4) + k.val; omega)
  rw [hR, hC]

/-- An entry is in point `t`'s output block iff each coordinate is in the block's range on its axis. -/
theorem mem_blk (t : Fin cfg0.N) (i : S16384x4096.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v3).slice (win0_2.rect t)).set ↔ _
  rw [View.set_slice_whole, Rect.mem_set_unit]
  exact Iff.rfl

/-- THE COVER: entry `(R, C)` is in the block the point `16·(R / 2048) + 4·(C / 1024) + 3` writes back. -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  have hlt : 16 * ((i 0).val / 2048) + 4 * ((i 1).val / 1024) + 3 < cfg0.N := by
    rw [show cfg0.N = 128 from N_0]; omega
  obtain ⟨t, ht⟩ : ∃ t : Fin cfg0.N, t.val = 16 * ((i 0).val / 2048) + 4 * ((i 1).val / 1024) + 3 := ⟨⟨_, hlt⟩, rfl⟩
  obtain ⟨-, -, -, -, e0, e1⟩ := idx_digits t
  refine ⟨t, (flush0_2 t).mpr (by omega), ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE RESULT ARRAY of the call after the run. -/
theorem final (c : Dev nD) : (dats m 0 c).arrAt 2 cfg0.N = product m c :=
  (dats m 0 c).arrAt_eq_of_cover 2 (product m c) (flushed_eq m c) cover

end Cert.KernelIdeal.Whole

end
-- ==== Proof.Around.lean ====
/-
  The host lines around the call, and the kernel's run read as one function of its inputs.
-/
import proofs.«106576_j8890582303360_2_alg».proof.Proof.Whole

noncomputable section

namespace Cert.KernelIdeal.Around

open Idealize.ShloMosaic Idealize.ShloMosaic.TcCoe Idealize.SL.Sem Idealize.ShloMosaic.ValueIdx
open Idealize.ShloMosaic.Pipeline (Dat)
open Cert.KernelIdeal Cert.KernelIdeal.Gen Cert.Hadamard
open Cert.KernelIdeal.Blocks Cert.KernelIdeal.Accum Cert.KernelIdeal.Whole

variable (m : (ℓ : Loc nD τ sig) → Buf (Elt Ideal) ℓ) (ρ : Dev nD → PrngReg)

/-- `X` is the first input regrouped to 16384 rows, then narrowed. -/
theorem lhsArr_eq (c : Dev nD) :
    lhsArr m c = truncf (F := Ideal) .bf16 (shapeCast S16384x4096 (m ((c : Thread nD τ).loc main_arg0) : FVec Ideal S4x4096x4096 .f32) shapeCasts_S4x4096x4096_S16384x4096) bitsLt_bf16_f32 := by
  unfold lhsArr
  show StableHlo.after hostOps0 (fun b => m (c, b)) (Proc.devRef .tc main_v1) = _
  after_results <;> rfl

/-- `H` is the second input narrowed. -/
theorem rhsArr_eq (c : Dev nD) :
    rhsArr m c = truncf (F := Ideal) .bf16 (m ((c : Thread nD τ).loc main_arg1) : FVec Ideal S4096x4096 .f32) bitsLt_bf16_f32 := by
  unfold rhsArr
  show StableHlo.after hostOps0 (fun b => m (c, b)) (Proc.devRef .tc main_v2) = _
  after_results <;> rfl

/-- Row `R = 4096·b + s` of `X` is row `(b, s)` of the first input: narrowing is the identity on the extended
    reals, and the regrouping keeps the row-major position. -/
theorem lhsArr_apply (c : Dev nD) (b : Fin 4) (s : Fin 4096) (R : Fin 16384) (hR : R.val = b.val * 4096 + s.val) (k : Fin 4096) :
    lhsArr m c (ix2 R k) = m ((c : Thread nD τ).loc main_arg0) (ix3 b s k) := by
  rw [lhsArr_eq]
  show shapeCast S16384x4096 (m ((c : Thread nD τ).loc main_arg0) : FVec Ideal S4x4096x4096 .f32) shapeCasts_S4x4096x4096_S16384x4096 (ix2 R k) = _
  refine shapeCast_apply _ shapeCasts_S4x4096x4096_S16384x4096 (ix2 R k) (ix3 b s k) ?_
  rewrite [Shape.rowMajor_val_three, Shape.rowMajor_val_two]
  show (b.val * 4096 + s.val) * 4096 + k.val = R.val * 4096 + k.val
  rw [hR]

/-- `H` entry by entry is the second input. -/
theorem rhsArr_apply (c : Dev nD) (i : S4096x4096.Idx) : rhsArr m c i = m ((c : Thread nD τ).loc main_arg1) i := by
  rw [rhsArr_eq]
  rfl

/-- The line after the call regroups the call's result array to (4, 4096, 4096). -/
theorem tail_eq (c : Dev nD) : Pipeline.afterTail₀ cfgs (dats m) 0 (V0 m) [hostOps1] c main_v4
    = shapeCast S4x4096x4096 (product m c) shapeCasts_S16384x4096_S4x4096x4096 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = product m c :=
    (Pipeline.withArrays_arr spec0 launch0.win.arr_inj c _ _ 2).trans (final m c)
  refine Eq.trans ?_ (congrArg (fun v => shapeCast S4x4096x4096 v shapeCasts_S16384x4096_S4x4096x4096) e)
  rfl

/-- THE KERNEL'S RESULT at `(b, s, n)`: the regrouped product is `rotated` of the two inputs. -/
theorem result_apply (c : Dev nD) (i : S4x4096x4096.Idx) :
    shapeCast S4x4096x4096 (product m c) shapeCasts_S16384x4096_S4x4096x4096 i
      = rotated (m ((c : Thread nD τ).loc main_arg0)) (m ((c : Thread nD τ).loc main_arg1)) i := by
  have h0 : (i 0).val < 4 := (i 0).isLt
  have h1 : (i 1).val < 4096 := (i 1).isLt
  have h2 : (i 2).val < 4096 := (i 2).isLt
  rw [shapeCast_apply (product m c) shapeCasts_S16384x4096_S4x4096x4096 i
    (ix2 (⟨(i 0).val * 4096 + (i 1).val, by omega⟩ : Fin 16384) (i 2))
    (by rewrite [Shape.rowMajor_val_two, Shape.rowMajor_val_three]; rfl)]
  unfold product rowDot rotated
  show (∑ k : Fin 4096, lhsArr m c (ix2 (⟨(i 0).val * 4096 + (i 1).val, _⟩ : Fin 16384) k) * rhsArr m c (ix2 (i 2) k)) * _ = _
  congr 1
  refine Finset.sum_congr rfl fun k _ => ?_
  rw [lhsArr_apply m c (i 0) (i 1) _ rfl k, rhsArr_apply]

/-- THE KERNEL'S RUN, READ: every weakly fair execution terminates with the result at `rotated` of the two
    inputs and both inputs unchanged. -/
theorem run : θ_run defs (onTc (τ := τ) (main (F := Ideal))) ⟨m, fun _ => 0, ρ⟩ fun r => ∀ c : Dev nD,
      r.2.mem ((c.tc : Thread nD τ).loc main_v4) = rotated (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans
          ((tail_eq m c).trans (funext (result_apply m c))),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Around

end
-- ==== Proof.RefSide.lean ====
/-
  The reference, entry by entry: it regroups `x` to (b, s, 1, k), contracts its last axis with the last axis of
  `h`, multiplies by the scale's word and regroups back — at `(b, s, n)` the sum over `k` of `x (b, s, k) · h (n, k)`,
  times the scale: the same function of the inputs as the kernel's result.
-/
import proofs.«106576_j8890582303360_2_alg».proof.Proof.Gen.ReferenceIdeal.Read
import proofs.«106576_j8890582303360_2_alg».proof.Proof.Whole

noncomputable section

namespace Cert.ReferenceIdeal.RefValue

open Idealize.ShloMosaic Idealize.ShloMosaic.ValueIdx
open Cert.ReferenceIdeal Cert.ReferenceIdeal.Read Cert.Hadamard

/-- The reference's last stage at `(b, s, n)` is `rotated` of the two inputs. -/
theorem reference_apply (x : (⟨S4x4096x4096, .f32⟩ : BufTy).Contents (Elt Ideal)) (h : (⟨S4096x4096, .f32⟩ : BufTy).Contents (Elt Ideal))
    (i : S4x4096x4096.Idx) : val_main_v4 (F := Ideal) x h i = rotated x h i := by
  have h0 : (i 0).val < 4 := (i 0).isLt
  have h1 : (i 1).val < 4096 := (i 1).isLt
  have h2 : (i 2).val < 4096 := (i 2).isLt
  rw [val_main_v4_apply, val_main_v3_apply, val_main_v1_apply, val_main_v2_apply, val_main_cst_apply]
  unfold rotated
  show (∑ k : Fin 4096, val_main_v0 (F := Ideal) x (lidx_main_v1 (idx_main_v4 i) k) * h (ridx_main_v1 (idx_main_v4 i) k)) * Ideal.ofBits .f32 0x3C800000#32 = _
  congr 1
  refine Finset.sum_congr rfl fun k _ => ?_
  have hk : k.val < 4096 := k.isLt
  rw [val_main_v0_apply]
  have el : idx_main_v0 (lidx_main_v1 (idx_main_v4 i) k) = ix3 (i 0) (i 1) k := funext fun a => Fin.ext (by
    match a with
    | ⟨0, _⟩ => dsimp only [idx_main_v0, lidx_main_v1, idx_main_v4, ix3]; omega
    | ⟨1, _⟩ => dsimp only [idx_main_v0, lidx_main_v1, idx_main_v4, ix3]; omega
    | ⟨2, _⟩ => dsimp only [idx_main_v0, lidx_main_v1, idx_main_v4, ix3]; omega)
  have er : ridx_main_v1 (idx_main_v4 i) k = ix2 (i 2) k := funext fun a => Fin.ext (by
    match a with
    | ⟨0, _⟩ => dsimp only [ridx_main_v1, idx_main_v4, ix2]; omega
    | ⟨1, _⟩ => dsimp only [ridx_main_v1, idx_main_v4, ix2])
  rw [el, er]
  rfl

end Cert.ReferenceIdeal.RefValue

end
-- ==== Proof.lean ====
/-
  A Hadamard rotation: `out (b, s, n) = (∑ k < 4096, x (b, s, k) · h (n, k)) · 1/64`, the product of `x`'s rows with
  the transpose of `h`, scaled by `1 / √4096` — an exact float, the same word in both programs.

  The kernel regroups `x` to 16384 rows, narrows both inputs to bf16 (the identity on the extended reals), and
  computes the product on an 8 × 4 × 4 grid of blocks: for each 2048 × 1024 block of the result it walks the
  contracted axis in four stretches of 1024, clearing an accumulator at the first stretch, adding each stretch's
  block product into it, and writing the accumulator times the scale to the result block at the fourth. The
  reference contracts the whole axis at once. The two agree entry by entry because a sum over 4096 positions is the
  sum of its four stretches' sums — commutativity and associativity of addition only, which hold on the extended
  reals without any finiteness, so the precondition is never opened.

  The modules: Spec (the sums, no program), Pieces (what one run of the body leaves, per case), Payload (the body's
  arithmetic at an entry), Blocks (which entries each block holds), Accum (the accumulator after each grid point, by
  induction), Whole (the blocks tile the result array), Around (the host lines around the call; the kernel's run as
  one function of the inputs), RefSide (the reference is the same function). The frames of the two kernel programs
  and the reference's run are the generated ones; the ideal pass rewrote nothing, so the idealization claim is `True`.
-/
import proofs.«106576_j8890582303360_2_alg».proof.Defs
import proofs.«106576_j8890582303360_2_alg».proof.Proof.Gen.Kernel
import proofs.«106576_j8890582303360_2_alg».proof.Proof.Gen.Kernel.Skeleton
import proofs.«106576_j8890582303360_2_alg».proof.Proof.Gen.Kernel.Launch
import proofs.«106576_j8890582303360_2_alg».proof.Proof.Gen.Kernel.Points
import proofs.«106576_j8890582303360_2_alg».proof.Proof.Gen.Kernel.Frame
import proofs.«106576_j8890582303360_2_alg».proof.Proof.Gen.KernelIdeal
import proofs.«106576_j8890582303360_2_alg».proof.Proof.Gen.KernelIdeal.Skeleton
import proofs.«106576_j8890582303360_2_alg».proof.Proof.Gen.KernelIdeal.Launch
import proofs.«106576_j8890582303360_2_alg».proof.Proof.Gen.KernelIdeal.Points
import proofs.«106576_j8890582303360_2_alg».proof.Proof.Gen.KernelIdeal.Frame
import proofs.«106576_j8890582303360_2_alg».proof.Proof.Gen.ReferenceIdeal
import proofs.«106576_j8890582303360_2_alg».proof.Proof.Gen.ReferenceIdeal.Run
import proofs.«106576_j8890582303360_2_alg».proof.Proof.Gen.ReferenceIdeal.Read
import proofs.«106576_j8890582303360_2_alg».proof.Proof.Gen.Pre_finite_inputs
import proofs.«106576_j8890582303360_2_alg».proof.Proof.Around
import proofs.«106576_j8890582303360_2_alg».proof.Proof.RefSide
import Idealize.ShloMosaic.Adequacy
import Idealize.ShloMosaic.Init

noncomputable section

namespace Cert.Proof

open Idealize.ShloMosaic Idealize.SL.Sem

/-- The two kernel programs run, fault-free, and leave their inputs as they were: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- Over the extended reals both programs end with the result at `rotated` of the inputs: the kernel by its run read
    through the grid (`Around.run`), the reference by its generated run read entry by entry (`reference_apply`). -/
theorem algebraic : Cert.algebraic_KernelIdeal_ReferenceIdeal := by
  intro m ρ m' ρ' _ hagree
  refine ⟨fun c => Cert.Hadamard.rotated
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2]
  exact funext (Cert.ReferenceIdeal.RefValue.reference_apply _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
